-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x256 : Shape := ⟨2, ![8192, 256]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_

variable [Facts]

def fn_part1 {F : FTy → Type} [FloatOps F] (main_v13 : IVec S_ 1) (main_v16 : IVec S8192x256 1) : IVec S_ 1 :=
  let main_c_5 : IVec S_ 1 := constantI S_ 1 1#1
  let main_v17 : IVec S_ 1 := (fun x v => Host.reduce IntOp.andi x v reducesTo_S8192x256_S_d0_1 h_S_) main_v16 main_c_5
  let main_v18 : IVec S_ 1 := andi main_v13 main_v17
  main_v18

def fn {F : FTy → Type} [FloatOps F] (main_arg0 : FVec F S8192x8192 .f32) (main_arg1 : FVec F S8192x8192 .f32) (main_arg2 : FVec F S8192x256 .f32) (main_arg3 : FVec F S8192x256 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  let main_v14 : FVec F S8192x256 .f32 := Host.absf main_arg3
  let main_cst_4 : FVec F S_ .f32 := constant S_ .f32 0x7F800000#32
  let main_v15 : FVec F S8192x256 .f32 := broadcastInDim S8192x256 ![] bcast_S_S8192x256 main_cst_4
  let main_v16 : IVec S8192x256 1 := cmpf .olt main_v14 main_v15
  fn_part1 (F := F) main_v13 main_v16
-- ==== Kernel.lean ====
abbrev S8192x8192 : Shape := ⟨2, ![8192, 8192]⟩
abbrev S8192x256 : Shape := ⟨2, ![8192, 256]⟩
abbrev S8x8x128 : Shape := ⟨3, ![8, 8, 128]⟩
abbrev S1024x256 : Shape := ⟨2, ![1024, 256]⟩
abbrev S1024x1024 : Shape := ⟨2, ![1024, 1024]⟩
abbrev S1x8x128 : Shape := ⟨3, ![1, 8, 128]⟩
abbrev S256x1024 : Shape := ⟨2, ![256, 1024]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S1x1x1 : Shape := ⟨3, ![1, 1, 1]⟩
abbrev S8x1x1 : Shape := ⟨3, ![8, 1, 1]⟩
abbrev S8 : Shape := ⟨1, ![8]⟩
abbrev S_ : Shape := ⟨0, ![]⟩

abbrev nBuf : Space → Nat
  | .hbm => 9
  | .vmem => 9
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x256, .f32⟩
  | .hbm, ⟨3, _⟩ => ⟨S8192x256, .f32⟩
  | .hbm, ⟨4, _⟩ => ⟨S8x8x128, .f32⟩
  | .hbm, ⟨5, _⟩ => ⟨S8x1x1, .f32⟩
  | .hbm, ⟨6, _⟩ => ⟨S8, .f32⟩
  | .hbm, ⟨7, _⟩ => ⟨S_, .f32⟩
  | .hbm, ⟨8, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S8192x256, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x8x128, .f32⟩
  | .local _ .vmem, ⟨8, _⟩ => ⟨S1x8x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v4 : BitVec 32 := Scalar.muli arg1 c1024_i32
  v4
def k0_off1 (i : grid0.Coords) : Fin 2 → Nat :=
  let arg1 : BitVec 32 := BitVec.ofNat 32 (i 1).val
  let c1024_i32 : BitVec 32 := 1024#32
  let v4 : BitVec 32 := Scalar.muli arg1 c1024_i32
  let v5 : BitVec 32 := v4
  let v6 : Index := Scalar.indexCast v5
  let c0_2 : Index := 0#32
  ![v6.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  transposes_S1024x256_p1_0_S256x1024 : S1024x256.Transposes [1, 0] S256x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  reduces_S1024x256_S1024 : S1024x256.Reduces [1] S1024
  shapeCasts_S1x8x128_S1x8x128 : S1x8x128.ShapeCasts S1x8x128
  shapeCasts_S1x1_S1x1x1 : S1x1.ShapeCasts S1x1x1
  shapeCasts_S1x1x1_S1x1x1 : S1x1x1.ShapeCasts S1x1x1
  broadcasts_S1x1x1_S1x8x128 : S1x1x1.Broadcasts S1x8x128
  slices_S8x8x128_S8x1x1_0_0_0 : S8x8x128.Slices ![0, 0, 0] S8x1x1
  shapeCasts_S8x1x1_S8 : S8x1x1.ShapeCasts S8
  reducesTo_S8_S_d0 : S8.ReducesTo [0] S_
  h_S_ : 0 < S_.numel
  dot_S1024x256_S256x1024_S1024x1024_1_0_0_1_n_n_wf : DotDims.WF S1024x256 S256x1024 S1024x1024 [1] [0] [0] [1] [] []
  hrank0 : 0 < grid0.rank
  k0_mult1_dvd : ∀ i : grid0.Coords, 8 ∣ (k0_mult1 i).toNat
  k0_off1_inb : ∀ i : grid0.Coords, ∀ a, (k0_off1 i) a + S1024x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x8192.size a
  hwx0_3 : ∀ i : grid0.Coords, EltTy.bits .f32 = 32 ∨ (Rect.block (s := S8192x8192) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S8x8x128.size a
  hwx0_4 : ∀ i : grid0.Coords, EltTy.bits .f32 = 32 ∨ (Rect.block (s := S8x8x128) S1x8x128.size (cc0_transform_4 i) (hinb0_4 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg2) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S8192x256 : Shape := ⟨2, ![8192, 256]⟩
abbrev S256x8192 : Shape := ⟨2, ![256, 8192]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x256, .f32⟩
  | .hbm, ⟨3, _⟩ => ⟨S8192x256, .f32⟩
  | .hbm, ⟨4, _⟩ => ⟨S256x8192, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S_, .f32⟩
  | .hbm, ⟨10, _⟩ => ⟨S_, .f32⟩
  | .hbm, ⟨11, _⟩ => ⟨S8192x256, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8192x256, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  transposes_S8192x256_S256x8192_1_0 : S8192x256.Transposes [1, 0] S256x8192
  reducesTo_S8192x8192_S_d0_1 : S8192x8192.ReducesTo [0, 1] S_
  h_S_ : 0 < S_.numel
  reducesTo_S8192x256_S_d0_1 : S8192x256.ReducesTo [0, 1] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.Cases.lean ====
/-
  What the kernel body leaves in the output row's block, in each of its four control cases, as a composition of the
  stores' payloads.  The body zeroes the block at the first column tile, then (first column) adds U's weighted
  norm, then (first row) adds V's weighted norm, then adds the tile's error; each store covers the whole block, so
  the block ends at the last store's payload, and every load of the block reads the store before it.  The V rows
  used by a point are the 1024 rows of the resident V starting at 1024 times the column-tile coordinate.
-/
import proofs.«143108_j80161269612812_2_alg».proof.Proof.Gen.KernelIdeal.Frame
import Idealize.ShloMosaic.Lib.Pipeline.Value
import Idealize.ShloMosaic.Lib.Tactic

noncomputable section

namespace Cert.KernelIdeal.Tile

open Cert.KernelIdeal Cert.KernelIdeal.Gen Idealize.ShloMosaic Idealize.ShloMosaic.TcCoe Idealize.SL.Sem

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A load of the whole block after a list of stores whose LAST one covered the whole block reads that store's
    payload. -/
theorem readCov_cons_unit_zero {Val : EltTy → Type} [∀ e, Nonempty (Val e)] {sig : RefSig} {κ : Kind} {sp : Space}
    {S : Shape} {e : EltTy} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon', View.canon_cons_unit_zero h inb w L]
  exact View.ld_unit_zero h inb w

/-- The rows of the resident V that the point's column tile uses. -/
def vrows (i : grid0.Coords) (x1 : Vec F S8192x256 .f32) : Vec F S1024x256 .f32 :=
  View.ld x1 (Rect.unit (s := S8192x256) (k0_off1 i) S1024x256.size (k0_off1_inb i))

/-- The first point: zero, both weighted norms, the tile's error. -/
theorem out_A (c : Dev nD) (i : grid0.Coords) (arg2 : Memref sig .tc .vmem S1024x256 .f32) (harg2 : arg2.IsWhole) (arg3 : Memref sig .tc .vmem S8192x256 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x8x128 .f32) (harg6 : arg6.IsWhole) (hc0 : cond0_0 i) (hc1 : cond0_1 i) (hc2 : cond0_2 i)
    (x0 : Vec F S1024x256 .f32) (x1 : Vec F S8192x256 .f32) (x2 : Vec F S1024x1024 .f32) (x3 : Vec F S1024x1024 .f32) :
    out0_A_4 c i arg2 harg2 arg3 harg3 arg4 harg4 arg5 harg5 arg6 harg6 hc0 hc1 hc2 x0 x1 x2 x3 = k0_pay4 x0 (vrows i x1) x2 x3 (k0_pay3 (vrows i x1) (k0_pay2 x0 k0_pay1)) := by
  unfold out0_A_4
  rw [View.read_writes_eq_canon _ _ _ (cover0_A_4 c i arg2 harg2 arg3 harg3 arg4 harg4 arg5 harg5 arg6 harg6 hc0 hc1 hc2 x0 x1 x2 x3)]
  unfold kernelRun0_A
  dsimp only
  sl_unfold_words
  rw [View.canon_cons_unit_zero (S := S1x8x128) hz3]
  simp only [readCov_cons_unit_zero (S := S1x8x128) _ hz3, View.readAt_eq_ld, harg2.read_unread, harg3.read_unread,
    harg4.read_unread, harg5.read_unread, harg6.read_unread, View.ld_unit_zero (S := S1024x256) hz2,
    View.ld_unit_zero (S := S1024x1024) hz2, View.ld_unit_zero (S := S1x8x128) hz3]
  rfl

/-- A later point of the first row: V's weighted norm and the tile's error over the running contents. -/
theorem out_B (c : Dev nD) (i : grid0.Coords) (arg2 : Memref sig .tc .vmem S1024x256 .f32) (harg2 : arg2.IsWhole) (arg3 : Memref sig .tc .vmem S8192x256 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x8x128 .f32) (harg6 : arg6.IsWhole) (hc0 : ¬cond0_0 i) (hc1 : ¬cond0_1 i) (hc2 : cond0_2 i)
    (x0 : Vec F S1024x256 .f32) (x1 : Vec F S8192x256 .f32) (x2 : Vec F S1024x1024 .f32) (x3 : Vec F S1024x1024 .f32) (xo4 : Vec F S1x8x128 .f32) :
    out0_B_4 c i arg2 harg2 arg3 harg3 arg4 harg4 arg5 harg5 arg6 harg6 hc0 hc1 hc2 x0 x1 x2 x3 xo4 = k0_pay4 x0 (vrows i x1) x2 x3 (k0_pay3 (vrows i x1) xo4) := by
  unfold out0_B_4
  rw [View.read_writes_eq_canon _ _ _ (cover0_B_4 c i arg2 harg2 arg3 harg3 arg4 harg4 arg5 harg5 arg6 harg6 hc0 hc1 hc2 x0 x1 x2 x3 xo4)]
  unfold kernelRun0_B
  dsimp only
  sl_unfold_words
  rw [View.canon_cons_unit_zero (S := S1x8x128) hz3]
  simp only [readCov_cons_unit_zero (S := S1x8x128) _ hz3, View.readAt_eq_ld, harg2.read_unread, harg3.read_unread,
    harg4.read_unread, harg5.read_unread, harg6.read_unread, View.ld_unit_zero (S := S1024x256) hz2,
    View.ld_unit_zero (S := S1024x1024) hz2, View.ld_unit_zero (S := S1x8x128) hz3]
  rfl

/-- The first point of a later row: zero, U's weighted norm, the tile's error. -/
theorem out_C (c : Dev nD) (i : grid0.Coords) (arg2 : Memref sig .tc .vmem S1024x256 .f32) (harg2 : arg2.IsWhole) (arg3 : Memref sig .tc .vmem S8192x256 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x8x128 .f32) (harg6 : arg6.IsWhole) (hc0 : cond0_0 i) (hc1 : cond0_1 i) (hc2 : ¬cond0_2 i)
    (x0 : Vec F S1024x256 .f32) (x1 : Vec F S8192x256 .f32) (x2 : Vec F S1024x1024 .f32) (x3 : Vec F S1024x1024 .f32) :
    out0_C_4 c i arg2 harg2 arg3 harg3 arg4 harg4 arg5 harg5 arg6 harg6 hc0 hc1 hc2 x0 x1 x2 x3 = k0_pay4 x0 (vrows i x1) x2 x3 (k0_pay2 x0 k0_pay1) := by
  unfold out0_C_4
  rw [View.read_writes_eq_canon _ _ _ (cover0_C_4 c i arg2 harg2 arg3 harg3 arg4 harg4 arg5 harg5 arg6 harg6 hc0 hc1 hc2 x0 x1 x2 x3)]
  unfold kernelRun0_C
  dsimp only
  sl_unfold_words
  rw [View.canon_cons_unit_zero (S := S1x8x128) hz3]
  simp only [readCov_cons_unit_zero (S := S1x8x128) _ hz3, View.readAt_eq_ld, harg2.read_unread, harg3.read_unread,
    harg4.read_unread, harg5.read_unread, harg6.read_unread, View.ld_unit_zero (S := S1024x256) hz2,
    View.ld_unit_zero (S := S1024x1024) hz2, View.ld_unit_zero (S := S1x8x128) hz3]
  rfl

/-- A later point of a later row: the tile's error over the running contents. -/
theorem out_D (c : Dev nD) (i : grid0.Coords) (arg2 : Memref sig .tc .vmem S1024x256 .f32) (harg2 : arg2.IsWhole) (arg3 : Memref sig .tc .vmem S8192x256 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x8x128 .f32) (harg6 : arg6.IsWhole) (hc0 : ¬cond0_0 i) (hc1 : ¬cond0_1 i) (hc2 : ¬cond0_2 i)
    (x0 : Vec F S1024x256 .f32) (x1 : Vec F S8192x256 .f32) (x2 : Vec F S1024x1024 .f32) (x3 : Vec F S1024x1024 .f32) (xo4 : Vec F S1x8x128 .f32) :
    out0_D_4 c i arg2 harg2 arg3 harg3 arg4 harg4 arg5 harg5 arg6 harg6 hc0 hc1 hc2 x0 x1 x2 x3 xo4 = k0_pay4 x0 (vrows i x1) x2 x3 xo4 := by
  unfold out0_D_4
  rw [View.read_writes_eq_canon _ _ _ (cover0_D_4 c i arg2 harg2 arg3 harg3 arg4 harg4 arg5 harg5 arg6 harg6 hc0 hc1 hc2 x0 x1 x2 x3 xo4)]
  unfold kernelRun0_D
  dsimp only
  sl_unfold_words
  rw [View.canon_cons_unit_zero (S := S1x8x128) hz3]
  simp only [readCov_cons_unit_zero (S := S1x8x128) _ hz3, View.readAt_eq_ld, harg2.read_unread, harg3.read_unread,
    harg4.read_unread, harg5.read_unread, harg6.read_unread, View.ld_unit_zero (S := S1024x256) hz2,
    View.ld_unit_zero (S := S1024x1024) hz2, View.ld_unit_zero (S := S1x8x128) hz3]
  rfl

end Cert.KernelIdeal.Tile

end
-- ==== Proof.LibTileOps.lean ====
/-
  Vector operations of a tile read at an index, at the ideal instance, generic in the extents.

  * a shape cast between two shapes of one element, and a broadcast from a shape whose axes all have extent one,
    read the operand's only element;
  * a vector of length `a` cast to the column `[a, 1]` reads the vector at the row;
  * the sum of a `[a, b]` tile taken in two steps — along the lanes, then, after the cast to a column, along the
    rows — is the double sum over the rows and the lanes.
-/
import Idealize.ShloMosaic.Lib.Pipeline.Value
import Idealize.ShloMosaic.Lib.ValueIdx
import Idealize.ShloMosaic.PureOps.Ideal.Laws

noncomputable section

namespace Cert.LibTileOps

open Idealize.ShloMosaic Idealize.ShloMosaic.ValueIdx

variable {α : Type}

/-- A cast out of a shape with one element reads that element, whatever the two indices are called. -/
theorem shapeCast_one {s t : Shape} (x : s.Idx → α) (h : s.ShapeCasts t) (hs : s.numel = 1) (j : t.Idx) (k : s.Idx) :
    shapeCast t x h j = x k :=
  shapeCast_apply x h j k (by
    have h1 := (s.rowMajor k).isLt
    have h2 := (t.rowMajor j).isLt
    have h3 : t.numel = s.numel := h
    omega)

/-- A broadcast out of a shape whose axes all have extent one reads its one element everywhere. -/
theorem broadcastTo_one {s t : Shape} (x : s.Idx → α) (h : s.Broadcasts t) (hs : ∀ a, s.size a = 1) (j : t.Idx) (k : s.Idx) :
    broadcastTo t x h j = x k :=
  broadcastTo_apply x h j k (fun a => by
    rw [if_pos (hs a)]
    have h1 := (k a).isLt
    have h2 := hs a
    omega)

/-- A length-`a` vector cast to the column `[a, 1]`, read at row `i`. -/
theorem shapeCast_col_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_two, Shape.rowMajor_val_one]
    show i.val = i.val * 1 + u.val
    omega)

/-- The two-step sum of a tile: lanes first, then rows. -/
theorem tile_sum_apply {a b : ℕ} (x : FVec Ideal ⟨2, ![a, b]⟩ .f32)
    (h1 : (⟨2, ![a, b]⟩ : Shape).Reduces [1] ⟨1, ![a]⟩) (hφ1 : FKind.Formats .f32)
    (hacc1 : (0x00000000#32 : BitVec 32) = FKind.add.neutral .f32 hφ1)
    (hc : (⟨1, ![a]⟩ : Shape).ShapeCasts ⟨2, ![a, 1]⟩)
    (h0 : (⟨2, ![a, 1]⟩ : Shape).Reduces [0] ⟨1, ![1]⟩) (hφ0 : FKind.Formats .f32)
    (hacc0 : (0x00000000#32 : BitVec 32) = FKind.add.neutral .f32 hφ0)
    (j : (⟨1, ![1]⟩ : Shape).Idx) :
    multiReduction .add [0] ⟨1, ![1]⟩
        (shapeCast ⟨2, ![a, 1]⟩ (multiReduction .add [1] ⟨1, ![a]⟩ x 0x00000000#32 h1 hφ1 hacc1) hc)
        0x00000000#32 h0 hφ0 hacc0 j
      = ∑ r : Fin a, ∑ k : Fin b, x (ix2 r k) := by
  refine (Ideal.multiReduction_add_single _ _ h0 hφ0 hacc0 j).trans ?_
  show ∑ r : Fin a, _ = _
  refine Finset.sum_congr rfl fun r _ => ?_
  have e0 : h0.lift j r = ix2 r (0 : Fin 1) := funext fun c => Fin.ext (by
    match c with
    | ⟨0, _⟩ => rfl
    | ⟨1, _⟩ => show (j ⟨0, _⟩).val = 0; have hj : (j ⟨0, Nat.one_pos⟩).val < 1 := (j ⟨0, Nat.one_pos⟩).isLt; omega)
  rw [e0, shapeCast_col_apply]
  refine (Ideal.multiReduction_add_single x _ h1 hφ1 hacc1 (ix1 r)).trans ?_
  show ∑ k : Fin b, _ = _
  refine Finset.sum_congr rfl fun k _ => ?_
  exact congrArg x (funext fun c => Fin.ext (by
    match c with
    | ⟨0, _⟩ => rfl
    | ⟨1, _⟩ => rfl))

end Cert.LibTileOps

end
-- ==== Proof.Payload.lean ====
/-
  What each store of the kernel body writes, read at an index, at the ideal instance.

  The output row's block is [1, 8, 128]; every store writes the block's previous contents plus ONE scalar spread over
  the block (or the zero block).  The scalars are: the regularization weight times the squared norm of a
  [1024, 256] block (of U, or of V's rows of the column tile), and the tile's masked squared error
  `∑ r c, I[r,c] · (R[r,c] − ∑ k, U[r,k] · V[c,k])²`, the prediction being the matrix product of the U block with the
  TRANSPOSED V block into a zero accumulator (a change of float format is the identity here).
-/
import proofs.«143108_j80161269612812_2_alg».proof.Proof.Gen.KernelIdeal.Skeleton
import proofs.«143108_j80161269612812_2_alg».proof.Proof.LibTileOps

noncomputable section

namespace Cert.KernelIdeal.Tile

open Cert.KernelIdeal Cert.KernelIdeal.Gen Idealize.ShloMosaic Idealize.ShloMosaic.ValueIdx Cert.LibTileOps

/-- The regularization weight (the same word in the kernel and in the reference). -/
abbrev lam : EReal := Ideal.ofBits .f32 0x3C23D70A#32

/-- The squared norm of a [1024, 256] block. -/
def sqNorm (x : FVec Ideal S1024x256 .f32) : EReal := ∑ r : Fin 1024, ∑ k : Fin 256, x (ix2 r k) * x (ix2 r k)

/-- The masked squared error of a [1024, 1024] tile: `u` the rows' block of U, `v` the columns' block of V. -/
def tileErr (u v : FVec Ideal S1024x256 .f32) (rr ii : FVec Ideal S1024x1024 .f32) : EReal :=
  ∑ r : Fin 1024, ∑ c : Fin 1024,
    ii (ix2 r c) * (rr (ix2 r c) - ∑ k : Fin 256, u (ix2 r k) * v (ix2 c k))
      * (rr (ix2 r c) - ∑ k : Fin 256, u (ix2 r k) * v (ix2 c k))

/-- The zero block. -/
theorem pay1_apply (y : S1x8x128.Idx) : k0_pay1 (F := Ideal) y = 0 := Ideal.ofBits_zero_f32

/-- The block's contents plus a scalar spread over the block. -/
theorem add_spread_apply (S : FVec Ideal S1x1 .f32) (v : FVec Ideal S1x8x128 .f32) (y : S1x8x128.Idx) :
    addf (shapeCast S1x8x128 v shapeCasts_S1x8x128_S1x8x128)
        (broadcastTo S1x8x128 (shapeCast S1x1x1 (shapeCast S1x1x1 S shapeCasts_S1x1_S1x1x1) shapeCasts_S1x1x1_S1x1x1)
          broadcasts_S1x1x1_S1x8x128) y
      = v y + S (ix2 (0 : Fin 1) (0 : Fin 1)) := by
  refine congrArg₂ (· + ·) (congrFun (shapeCast_self v _) y) ?_
  refine (broadcastTo_one _ _ (by decide) y (ix3 (0 : Fin 1) (0 : Fin 1) (0 : Fin 1))).trans ?_
  refine (shapeCast_one _ _ (by decide) _ (ix3 (0 : Fin 1) (0 : Fin 1) (0 : Fin 1))).trans ?_
  exact shapeCast_one _ _ (by decide) _ (ix2 (0 : Fin 1) (0 : Fin 1))

/-- The first-column update: the weighted squared norm of the U block is added. -/
theorem pay2_apply (v3 : FVec Ideal S1024x256 .f32) (v39 : FVec Ideal S1x8x128 .f32) (y : S1x8x128.Idx) :
    k0_pay2 (F := Ideal) v3 v39 y = v39 y + lam * sqNorm v3 := by
  unfold k0_pay2
  refine (add_spread_apply _ v39 y).trans ?_
  refine congrArg (v39 y + ·) ?_
  refine congrArg (lam * ·) ?_
  refine (shapeCast_one _ _ (by decide) _ (ix1 (0 : Fin 1))).trans ?_
  exact tile_sum_apply (mulf v3 v3) _ _ _ _ _ _ _ _

/-- The first-row update: the weighted squared norm of the V block is added. -/
theorem pay3_apply (v7 : FVec Ideal S1024x256 .f32) (v39 : FVec Ideal S1x8x128 .f32) (y : S1x8x128.Idx) :
    k0_pay3 (F := Ideal) v7 v39 y = v39 y + lam * sqNorm v7 := by
  unfold k0_pay3
  refine (add_spread_apply _ v39 y).trans ?_
  refine congrArg (v39 y + ·) ?_
  refine congrArg (lam * ·) ?_
  refine (shapeCast_one _ _ (by decide) _ (ix1 (0 : Fin 1))).trans ?_
  exact tile_sum_apply (mulf v7 v7) _ _ _ _ _ _ _ _

/-! ### The prediction: a matrix product with the transposed V block -/

theorem lhs_0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide),
    dif_pos (show (0 : Fin S1024x256.rank) ∈ dot_S1024x256_S256x1024_S1024x1024_1_0_0_1_n_n.lhsNonContracting by decide)]
  rfl
theorem lhs_1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
theorem rhs_0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
theorem rhs_1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide),
    dif_pos (show (1 : Fin S256x1024.rank) ∈ dot_S1024x256_S256x1024_S1024x1024_1_0_0_1_n_n.rhsNonContracting by decide)]
  rfl

/-- Entry (r, c) of the prediction is the inner product of row `r` of the U block with row `c` of the V block. -/
theorem matmul_tile_apply (u v : FVec Ideal S1024x256 .f32) (r c : Fin 1024) :
    matmul dot_S1024x256_S256x1024_S1024x1024_1_0_0_1_n_n none (truncf .bf16 u bitsLt_bf16_f32)
        (transpose S256x1024 [1, 0] (truncf .bf16 v bitsLt_bf16_f32) transposes_S1024x256_p1_0_S256x1024)
        (constant S1024x1024 .f32 0x00000000#32) (ix2 r c)
      = ∑ k : Fin 256, u (ix2 r k) * v (ix2 c k) := by
  refine (Ideal.matmul_constant_zero_apply dot_S1024x256_S256x1024_S1024x1024_1_0_0_1_n_n none _ _ (ix2 r c)).trans ?_
  rw [← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 r c)
      ((contrEquiv1 dot_S1024x256_S256x1024_S1024x1024_1_0_0_1_n_n 256 rfl rfl).symm k) = ix2 r k :=
    funext fun a => Fin.ext (by
      match a with
      | ⟨0, _⟩ => exact lhs_0 _ _
      | ⟨1, _⟩ => exact (lhs_1 _ _).trans hk)
  have er : transpose S256x1024 [1, 0] (truncf .bf16 v bitsLt_bf16_f32) transposes_S1024x256_p1_0_S256x1024
      (dot_S1024x256_S256x1024_S1024x1024_1_0_0_1_n_n.rhsIdx (ix2 r c)
        ((contrEquiv1 dot_S1024x256_S256x1024_S1024x1024_1_0_0_1_n_n 256 rfl rfl).symm k)) = v (ix2 c k) :=
    transpose_apply [1, 0] _ _ _ (ix2 c k) (fun b => match b with
      | ⟨0, _⟩ => ((rhs_0 _ _).trans hk).symm
      | ⟨1, _⟩ => show c.val = _ from (rhs_1 (ix2 r c) _).symm)
  show u (dot_S1024x256_S256x1024_S1024x1024_1_0_0_1_n_n.lhsIdx (ix2 r c) _) * _ = _
  rw [el, er]

/-- The last store of every point: the tile's masked squared error is added. -/
theorem pay4_apply (v3 v7 : FVec Ideal S1024x256 .f32) (v12 v13 : FVec Ideal S1024x1024 .f32)
    (v27 : FVec Ideal S1x8x128 .f32) (y : S1x8x128.Idx) :
    k0_pay4 (F := Ideal) v3 v7 v12 v13 v27 y = v27 y + tileErr v3 v7 v12 v13 := by
  unfold k0_pay4
  refine (add_spread_apply _ v27 y).trans ?_
  refine congrArg (v27 y + ·) ?_
  refine (shapeCast_one _ _ (by decide) _ (ix1 (0 : Fin 1))).trans ?_
  refine (tile_sum_apply _ _ _ _ _ _ _ _ _).trans ?_
  unfold tileErr
  refine Finset.sum_congr rfl fun r _ => Finset.sum_congr rfl fun c _ => ?_
  show v13 (ix2 r c) * (v12 (ix2 r c) - matmul _ none _ _ _ (ix2 r c)) * (v12 (ix2 r c) - matmul _ none _ _ _ (ix2 r c)) = _
  rw [matmul_tile_apply]

end Cert.KernelIdeal.Tile

end
-- ==== Proof.SumLaws.lean ====
/-
  Laws of finite sums on the extended reals by which the loss is regrouped.

  A square is nonnegative on the extended reals (the two infinities square to +∞), and multiplication by ANY
  constant distributes over a sum of nonnegative terms; so the regularization weight moves across the sum of the
  row blocks' squared norms with no finiteness assumption.  A sum over 8192 coordinates is the sum over 8 blocks
  of the sums over the 1024 coordinates inside a block.  Last, the running contents of one output row: visiting the
  64 grid points in row-major order, the first point of a row starts from the weighted squared norm of that row's
  block of U, the points of the first row each add the weighted squared norm of one block of V, and every point
  adds its tile's masked squared error; `acc` is that value in closed form, the four `acc_*` lemmas are the four
  ways a point updates it, and `total` sums the rows' last values.
-/
import Idealize.ShloMosaic.PureOps.Ideal
import Mathlib.Algebra.BigOperators.Fin
import Mathlib.Algebra.BigOperators.Intervals
import Mathlib.Tactic.Abel

noncomputable section

namespace Cert.SumLaws

open Finset

/-- A square is nonnegative on the extended reals. -/
theorem mul_self_nonneg (x : EReal) : 0 ≤ x * x := by
  induction x using EReal.rec with
  | bot => simp
  | top => simp
  | coe r => rw [← EReal.coe_mul]; exact EReal.coe_nonneg.mpr (_root_.mul_self_nonneg r)

/-- A constant factor moves inside a sum of nonnegative extended reals. -/
theorem mul_sum_of_nonneg {ι : Type*} (c : EReal) (s : Finset ι) (f : ι → EReal) (hf : ∀ i ∈ s, 0 ≤ f i) :
    c * ∑ i ∈ s, f i = ∑ i ∈ s, c * f i := by
  classical
  revert hf
  refine Finset.induction_on s (fun _ => by simp) ?_
  intro a s ha ih hf
  rw [Finset.sum_insert ha, Finset.sum_insert ha,
    EReal.left_distrib_of_nonneg (hf a (Finset.mem_insert_self a s))
      (Finset.sum_nonneg fun i hi => hf i (Finset.mem_insert_of_mem hi)),
    ih fun i hi => hf i (Finset.mem_insert_of_mem hi)]

/-- Coordinate `r` of block `i`, of 8 blocks of 1024. -/
def blk (i : Fin 8) (r : Fin 1024) : Fin 8192 := ⟨r.val + 1024 * i.val, by omega⟩

@[simp] theorem blk_val (i : Fin 8) (r : Fin 1024) : (blk i r).val = r.val + 1024 * i.val := rfl

/-- A sum over the 8192 coordinates, block by block. -/
theorem sum_blk {M : Type*} [AddCommMonoid M] (g : Fin 8192 → M) :
    ∑ a, g a = ∑ i : Fin 8, ∑ r : Fin 1024, g (blk i r) := by
  have h := Fintype.sum_equiv (finProdFinEquiv (m := 8) (n := 1024)) (fun p : Fin 8 × Fin 1024 => g (blk p.1 p.2)) g
    (fun p => congrArg g (Fin.ext rfl))
  rw [← h, Fintype.sum_prod_type]

variable (lam : EReal) (su sv pt : ℕ → EReal)

/-- The contents of the output row after grid point `n` (row `n / 8`, column `n % 8`). -/
def acc (n : ℕ) : EReal :=
  lam * su (8 * (n / 8)) + (if n < 8 then ∑ k ∈ range (n + 1), lam * sv k else 0)
    + ∑ k ∈ range (n % 8 + 1), pt (8 * (n / 8) + k)

/-- The first point: the row is zeroed, then takes both weighted norms and the tile's error. -/
theorem acc_first : acc lam su sv pt 0 = ((0 + lam * su 0) + lam * sv 0) + pt 0 := by
  simp [acc]

/-- A later point of the first row adds one block of V's weighted norm and the tile's error. -/
theorem acc_first_row (n : ℕ) (h0 : ¬n % 8 = 0) (h : n < 8) :
    acc lam su sv pt n = (acc lam su sv pt (n - 1) + lam * sv n) + pt n := by
  obtain ⟨k, rfl⟩ : ∃ k, n = k + 1 := ⟨n - 1, by omega⟩
  unfold acc
  rw [if_pos h, if_pos (by omega), show (k + 1) / 8 = 0 by omega, show (k + 1 - 1) / 8 = 0 by omega,
    show (k + 1) % 8 = k + 1 by omega, show (k + 1 - 1) % 8 = k by omega, show k + 1 - 1 = k by omega,
    Finset.sum_range_succ _ (k + 1), Finset.sum_range_succ (fun k => pt (8 * 0 + k)) (k + 1)]
  simp only [Nat.mul_zero, Nat.zero_add]
  abel

/-- The first point of a later row: the row is zeroed, then takes U's weighted norm and the tile's error. -/
theorem acc_row_start (n : ℕ) (h0 : n % 8 = 0) (h : ¬n < 8) :
    acc lam su sv pt n = (0 + lam * su n) + pt n := by
  unfold acc
  rw [if_neg h, h0, show 8 * (n / 8) = n by omega]
  simp

/-- A later point of a later row adds the tile's error. -/
theorem acc_later (n : ℕ) (h0 : ¬n % 8 = 0) (h : ¬n < 8) :
    acc lam su sv pt n = acc lam su sv pt (n - 1) + pt n := by
  obtain ⟨k, rfl⟩ : ∃ k, n = k + 1 := ⟨n - 1, by omega⟩
  unfold acc
  rw [if_neg h, if_neg (by omega), show k + 1 - 1 = k by omega, show (k + 1) / 8 = k / 8 by omega,
    show (k + 1) % 8 + 1 = (k % 8 + 1) + 1 by omega, Finset.sum_range_succ _ (k % 8 + 1),
    show 8 * (k / 8) + (k % 8 + 1) = k + 1 by omega]
  abel

/-- The rows' last values add up to the whole masked squared error plus the two weighted squared norms. -/
theorem total (hsu : ∀ n, 0 ≤ su n) (hsv : ∀ n, 0 ≤ sv n) :
    ∑ i ∈ range 8, acc lam su sv pt (8 * i + 7)
      = (∑ i ∈ range 8, ∑ k ∈ range 8, pt (8 * i + k) + lam * ∑ i ∈ range 8, su (8 * i))
        + lam * ∑ k ∈ range 8, sv k := by
  have row : ∀ i ∈ range 8, acc lam su sv pt (8 * i + 7)
      = lam * su (8 * i) + (if i = 0 then ∑ k ∈ range 8, lam * sv k else 0) + ∑ k ∈ range 8, pt (8 * i + k) := by
    intro i _
    unfold acc
    rw [show (8 * i + 7) / 8 = i by omega, show (8 * i + 7) % 8 + 1 = 8 by omega]
    by_cases hi : i = 0
    · subst hi; simp
    · rw [if_neg (by omega), if_neg hi]
  rw [Finset.sum_congr rfl row, Finset.sum_add_distrib, Finset.sum_add_distrib,
    Finset.sum_ite_eq' (range 8) 0 (fun _ => ∑ k ∈ range 8, lam * sv k), if_pos (by simp),
    ← mul_sum_of_nonneg lam (range 8) (fun i => su (8 * i)) (fun i _ => hsu _),
    ← mul_sum_of_nonneg lam (range 8) sv (fun i _ => hsv _)]
  abel

end Cert.SumLaws

end
-- ==== Proof.Chain.lean ====
/-
  The output row's block after every grid point, at the ideal instance: every entry of the block holds the running
  value `SumLaws.acc` of the point — the weighted squared norm of the row's block of U, the weighted squared norms
  of the blocks of V met so far when the row is the first, and the masked squared errors of the row's tiles so far.
  By induction over the points in their order; each point is in one of the body's four control cases, and each
  case's payloads add their scalars to the contents the point found.
-/
import proofs.«143108_j80161269612812_2_alg».proof.Proof.Cases
import proofs.«143108_j80161269612812_2_alg».proof.Proof.Payload
import proofs.«143108_j80161269612812_2_alg».proof.Proof.SumLaws

noncomputable section

namespace Cert.KernelIdeal.Tile

open Cert.KernelIdeal Cert.KernelIdeal.Gen Idealize.ShloMosaic Idealize.ShloMosaic.TcCoe Idealize.SL.Sem
open Idealize.ShloMosaic.ValueIdx Cert.SumLaws

/-! ### The four compositions of payloads, at an entry of the block -/

theorem val_A (x0 vr : FVec Ideal S1024x256 .f32) (x2 x3 : FVec Ideal S1024x1024 .f32) (y : S1x8x128.Idx) :
    k0_pay4 (F := Ideal) x0 vr x2 x3 (k0_pay3 (F := Ideal) vr (k0_pay2 (F := Ideal) x0 (k0_pay1 (F := Ideal)))) y
      = ((0 + lam * sqNorm x0) + lam * sqNorm vr) + tileErr x0 vr x2 x3 := by
  rw [pay4_apply, pay3_apply, pay2_apply, pay1_apply]

theorem val_B (x0 vr : FVec Ideal S1024x256 .f32) (x2 x3 : FVec Ideal S1024x1024 .f32) (xo : FVec Ideal S1x8x128 .f32)
    (y : S1x8x128.Idx) :
    k0_pay4 (F := Ideal) x0 vr x2 x3 (k0_pay3 (F := Ideal) vr xo) y = (xo y + lam * sqNorm vr) + tileErr x0 vr x2 x3 := by
  rw [pay4_apply, pay3_apply]

theorem val_C (x0 vr : FVec Ideal S1024x256 .f32) (x2 x3 : FVec Ideal S1024x1024 .f32) (y : S1x8x128.Idx) :
    k0_pay4 (F := Ideal) x0 vr x2 x3 (k0_pay2 (F := Ideal) x0 (k0_pay1 (F := Ideal))) y = (0 + lam * sqNorm x0) + tileErr x0 vr x2 x3 := by
  rw [pay4_apply, pay2_apply, pay1_apply]

theorem val_D (x0 vr : FVec Ideal S1024x256 .f32) (x2 x3 : FVec Ideal S1024x1024 .f32) (xo : FVec Ideal S1x8x128 .f32)
    (y : S1x8x128.Idx) :
    k0_pay4 (F := Ideal) x0 vr x2 x3 xo y = xo y + tileErr x0 vr x2 x3 := pay4_apply x0 vr x2 x3 xo y

variable (m : (ℓ : Loc nD τ sig) → Buf (Elt Ideal) ℓ)

/-! ### One point, in each case -/

theorem step_A (c : Dev nD) (t : Fin cfg0.N) (h0 : t.val % 8 = 0) (h2 : t.val < 8) (y : S1x8x128.Idx) :
    outsAt0 m c t.val t.isLt y
      = ((0 + lam * sqNorm (iblk m c 0 t)) + lam * sqNorm (vrows (grid0.coords t) (iblk m c 1 t)))
        + tileErr (iblk m c 0 t) (vrows (grid0.coords t) (iblk m c 1 t)) (iblk m c 2 t) (iblk m c 3 t) :=
  ((congrFun (outsAt0_A m c t h0 h0 h2) y).trans
    (congrFun (out_A (F := Ideal) c (grid0.coords t) (ms0_0 t) (hs0_0 t) (ms0_1 t) (hs0_1 t) (ms0_2 t) (hs0_2 t) (ms0_3 t) (hs0_3 t) (ms0_4 t) (hs0_4 t)
      ((hcond0_0 t).mpr h0) ((hcond0_1 t).mpr h0) ((hcond0_2 t).mpr h2) (iblk m c 0 t) (iblk m c 1 t) (iblk m c 2 t) (iblk m c 3 t)) y)).trans
    (val_A (iblk m c 0 t) (vrows (grid0.coords t) (iblk m c 1 t)) (iblk m c 2 t) (iblk m c 3 t) y)

theorem step_B (c : Dev nD) (t : Fin cfg0.N) (h0 : ¬t.val % 8 = 0) (h2 : t.val < 8) (y : S1x8x128.Idx) :
    outsAt0 m c t.val t.isLt y
      = ((outsAt0 m c (t.val - 1) (Nat.lt_of_le_of_lt (Nat.sub_le _ _) t.isLt)) y + lam * sqNorm (vrows (grid0.coords t) (iblk m c 1 t)))
        + tileErr (iblk m c 0 t) (vrows (grid0.coords t) (iblk m c 1 t)) (iblk m c 2 t) (iblk m c 3 t) :=
  ((congrFun (outsAt0_B m c t h0 h0 h2) y).trans
    (congrFun (out_B (F := Ideal) c (grid0.coords t) (ms0_0 t) (hs0_0 t) (ms0_1 t) (hs0_1 t) (ms0_2 t) (hs0_2 t) (ms0_3 t) (hs0_3 t) (ms0_4 t) (hs0_4 t)
      (fun h => h0 ((hcond0_0 t).mp h)) (fun h => h0 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt))) y)).trans
    (val_B (iblk m c 0 t) (vrows (grid0.coords t) (iblk m c 1 t)) (iblk m c 2 t) (iblk m c 3 t) (outsAt0 m c (t.val - 1) (Nat.lt_of_le_of_lt (Nat.sub_le _ _) t.isLt)) y)

theorem step_C (c : Dev nD) (t : Fin cfg0.N) (h0 : t.val % 8 = 0) (h2 : ¬t.val < 8) (y : S1x8x128.Idx) :
    outsAt0 m c t.val t.isLt y
      = (0 + lam * sqNorm (iblk m c 0 t))
        + tileErr (iblk m c 0 t) (vrows (grid0.coords t) (iblk m c 1 t)) (iblk m c 2 t) (iblk m c 3 t) :=
  ((congrFun (outsAt0_C m c t h0 h0 h2) y).trans
    (congrFun (out_C (F := Ideal) c (grid0.coords t) (ms0_0 t) (hs0_0 t) (ms0_1 t) (hs0_1 t) (ms0_2 t) (hs0_2 t) (ms0_3 t) (hs0_3 t) (ms0_4 t) (hs0_4 t)
      ((hcond0_0 t).mpr h0) ((hcond0_1 t).mpr h0) (fun h => h2 ((hcond0_2 t).mp h)) (iblk m c 0 t) (iblk m c 1 t) (iblk m c 2 t) (iblk m c 3 t)) y)).trans
    (val_C (iblk m c 0 t) (vrows (grid0.coords t) (iblk m c 1 t)) (iblk m c 2 t) (iblk m c 3 t) y)

theorem step_D (c : Dev nD) (t : Fin cfg0.N) (h0 : ¬t.val % 8 = 0) (h2 : ¬t.val < 8) (y : S1x8x128.Idx) :
    outsAt0 m c t.val t.isLt y
      = (outsAt0 m c (t.val - 1) (Nat.lt_of_le_of_lt (Nat.sub_le _ _) t.isLt)) y
        + tileErr (iblk m c 0 t) (vrows (grid0.coords t) (iblk m c 1 t)) (iblk m c 2 t) (iblk m c 3 t) :=
  ((congrFun (outsAt0_D m c t h0 h0 h2) y).trans
    (congrFun (out_D (F := Ideal) c (grid0.coords t) (ms0_0 t) (hs0_0 t) (ms0_1 t) (hs0_1 t) (ms0_2 t) (hs0_2 t) (ms0_3 t) (hs0_3 t) (ms0_4 t) (hs0_4 t)
      (fun h => h0 ((hcond0_0 t).mp h)) (fun h => h0 ((hcond0_1 t).mp h)) (fun h => h2 ((hcond0_2 t).mp h)) (iblk m c 0 t) (iblk m c 1 t) (iblk m c 2 t) (iblk m c 3 t) (outsAt0 m c (t.val - 1) (Nat.lt_of_le_of_lt (Nat.sub_le _ _) t.isLt))) y)).trans
    (val_D (iblk m c 0 t) (vrows (grid0.coords t) (iblk m c 1 t)) (iblk m c 2 t) (iblk m c 3 t) (outsAt0 m c (t.val - 1) (Nat.lt_of_le_of_lt (Nat.sub_le _ _) t.isLt)) y)

/-! ### The three scalars of a point, by the point's number -/

/-- The squared norm of the block of U the point stages. -/
def suN (c : Dev nD) (n : ℕ) : EReal := if h : n < cfg0.N then sqNorm (iblk m c 0 ⟨n, h⟩) else 0
/-- The squared norm of the rows of V the point's column tile uses. -/
def svN (c : Dev nD) (n : ℕ) : EReal :=
  if h : n < cfg0.N then sqNorm (vrows (grid0.coords ⟨n, h⟩) (iblk m c 1 ⟨n, h⟩)) else 0
/-- The masked squared error of the point's tile. -/
def ptN (c : Dev nD) (n : ℕ) : EReal :=
  if h : n < cfg0.N then tileErr (iblk m c 0 ⟨n, h⟩) (vrows (grid0.coords ⟨n, h⟩) (iblk m c 1 ⟨n, h⟩))
    (iblk m c 2 ⟨n, h⟩) (iblk m c 3 ⟨n, h⟩) else 0

theorem suN_of_lt (c : Dev nD) {n : ℕ} (h : n < cfg0.N) : suN m c n = sqNorm (iblk m c 0 ⟨n, h⟩) := dif_pos h
theorem svN_of_lt (c : Dev nD) {n : ℕ} (h : n < cfg0.N) :
    svN m c n = sqNorm (vrows (grid0.coords ⟨n, h⟩) (iblk m c 1 ⟨n, h⟩)) := dif_pos h
theorem ptN_of_lt (c : Dev nD) {n : ℕ} (h : n < cfg0.N) :
    ptN m c n = tileErr (iblk m c 0 ⟨n, h⟩) (vrows (grid0.coords ⟨n, h⟩) (iblk m c 1 ⟨n, h⟩))
      (iblk m c 2 ⟨n, h⟩) (iblk m c 3 ⟨n, h⟩) := dif_pos h

/-- Every entry of the output row's block after point `n` is the running value of the point. -/
theorem outsAt_eq (c : Dev nD) : ∀ (n : ℕ) (h : n < cfg0.N) (y : S1x8x128.Idx),
    outsAt0 m c n h y = acc lam (suN m c) (svN m c) (ptN m c) n
  | 0, h, y => by
    rw [acc_first, suN_of_lt m c h, svN_of_lt m c h, ptN_of_lt m c h]
    exact step_A m c ⟨0, h⟩ rfl (Nat.succ_pos 7) y
  | n + 1, h, y => by
    have hN : cfg0.N = 64 := N_0
    by_cases h0 : (n + 1) % 8 = 0
    · have h2 : ¬(n + 1) < 8 := by omega
      rw [acc_row_start _ _ _ _ (n + 1) h0 h2, suN_of_lt m c h, ptN_of_lt m c h]
      exact step_C m c ⟨n + 1, h⟩ h0 h2 y
    · by_cases h2 : n + 1 < 8
      · rw [acc_first_row _ _ _ _ (n + 1) h0 h2, Nat.add_sub_cancel, svN_of_lt m c h, ptN_of_lt m c h,
          ← outsAt_eq c n (Nat.lt_of_succ_lt h) y]
        exact step_B m c ⟨n + 1, h⟩ h0 h2 y
      · rw [acc_later _ _ _ _ (n + 1) h0 h2, Nat.add_sub_cancel, ptN_of_lt m c h,
          ← outsAt_eq c n (Nat.lt_of_succ_lt h) y]
        exact step_D m c ⟨n + 1, h⟩ h0 h2 y

end Cert.KernelIdeal.Tile

end
-- ==== Proof.Spec.lean ====
/-
  The loss as one function of the four argument arrays, on the extended reals:

      loss = ((0 + ∑ a b, I[a,b] · (R[a,b] − ∑ k, U[a,k] · V[b,k])²) + λ · (0 + ∑ a k, U[a,k]²)) + λ · (0 + ∑ a k, V[a,k]²)

  (the zeros are the initial values of the three sums), and the regrouping of its three double sums by blocks of
  1024 rows: the error sum over the 8 × 8 tiles, the two squared norms over the 8 row blocks.
-/
import proofs.«143108_j80161269612812_2_alg».proof.Proof.SumLaws
import Idealize.ShloMosaic.Lib.ValueIdx

noncomputable section

namespace Cert.Spec

open Idealize.ShloMosaic Idealize.ShloMosaic.ValueIdx Cert.SumLaws

abbrev Mat : Type := (⟨2, ![8192, 8192]⟩ : Shape).Idx → EReal
abbrev Fac : Type := (⟨2, ![8192, 256]⟩ : Shape).Idx → EReal

/-- The masked squared error of one rating. -/
def errAt (R I : Mat) (U V : Fac) (a b : Fin 8192) : EReal :=
  I (ix2 a b) * (R (ix2 a b) - ∑ k : Fin 256, U (ix2 a k) * V (ix2 b k))
    * (R (ix2 a b) - ∑ k : Fin 256, U (ix2 a k) * V (ix2 b k))

/-- The squared norm of a factor matrix. -/
def sqAll (U : Fac) : EReal := ∑ a : Fin 8192, ∑ k : Fin 256, U (ix2 a k) * U (ix2 a k)

/-- The loss. -/
def loss (lam : EReal) (R I : Mat) (U V : Fac) : EReal :=
  ((0 + ∑ a : Fin 8192, ∑ b : Fin 8192, errAt R I U V a b) + lam * (0 + sqAll U)) + lam * (0 + sqAll V)

/-- The squared norm of row block `i`. -/
def sqBlk (U : Fac) (i : Fin 8) : EReal := ∑ r : Fin 1024, ∑ k : Fin 256, U (ix2 (blk i r) k) * U (ix2 (blk i r) k)

/-- The masked squared error of tile (i, j). -/
def errTile (R I : Mat) (U V : Fac) (i j : Fin 8) : EReal :=
  ∑ r : Fin 1024, ∑ c : Fin 1024, errAt R I U V (blk i r) (blk j c)

theorem sqBlk_nonneg (U : Fac) (i : Fin 8) : 0 ≤ sqBlk U i :=
  Finset.sum_nonneg fun _ _ => Finset.sum_nonneg fun _ _ => mul_self_nonneg _

theorem sqAll_eq (U : Fac) : sqAll U = ∑ i : Fin 8, sqBlk U i := sum_blk _

theorem err_eq (R I : Mat) (U V : Fac) :
    ∑ a : Fin 8192, ∑ b : Fin 8192, errAt R I U V a b = ∑ i : Fin 8, ∑ j : Fin 8, errTile R I U V i j := by
  rw [sum_blk]
  refine Finset.sum_congr rfl fun i _ => ?_
  unfold errTile
  refine (Finset.sum_congr rfl fun r _ => sum_blk (fun b => errAt R I U V (blk i r) b)).trans ?_
  exact Finset.sum_comm

/-- The loss from the tiles' errors and the row blocks' squared norms, the weight outside or inside the sums. -/
theorem loss_eq (lam : EReal) (R I : Mat) (U V : Fac) :
    loss lam R I U V
      = 0 + ((∑ i : Fin 8, ∑ j : Fin 8, errTile R I U V i j + lam * ∑ i : Fin 8, sqBlk U i)
          + lam * ∑ j : Fin 8, sqBlk V j) := by
  unfold loss
  rw [err_eq, sqAll_eq, sqAll_eq, zero_add, zero_add, zero_add, zero_add]

end Cert.Spec

end
-- ==== Proof.Blocks.lean ====
/-
  The blocks a grid point stages, read off the argument arrays.  Point `t` is row tile `t / 8`, column tile `t % 8`:
  its block of U is rows `1024 (t / 8) + r`, the rows of the resident V it uses are `1024 (t % 8) + r`, and its
  blocks of R and I are those rows against those columns.  So the point's three scalars are the row block's and
  the column block's squared norms and the tile's masked squared error, as functions of the whole arrays.
-/
import proofs.«143108_j80161269612812_2_alg».proof.Proof.Chain
import proofs.«143108_j80161269612812_2_alg».proof.Proof.Spec

noncomputable section

namespace Cert.KernelIdeal.Tile

open Cert.KernelIdeal Cert.KernelIdeal.Gen Idealize.ShloMosaic Idealize.ShloMosaic.TcCoe Idealize.SL.Sem
open Idealize.ShloMosaic.ValueIdx Cert.SumLaws Cert.Spec

variable (m : (ℓ : Loc nD τ sig) → Buf (Elt Ideal) ℓ)

/-- The printed index maps and the V row offset, decided over the grid. -/
theorem idx_facts_in : ∀ t : Fin cfg0.N,
    win0_0.index t (0 : Fin 2) = t.val / 8 ∧ win0_0.index t (1 : Fin 2) = 0
    ∧ win0_1.index t (0 : Fin 2) = 0 ∧ win0_1.index t (1 : Fin 2) = 0
    ∧ win0_2.index t (0 : Fin 2) = t.val / 8 ∧ win0_2.index t (1 : Fin 2) = t.val % 8
    ∧ win0_3.index t (0 : Fin 2) = t.val / 8 ∧ win0_3.index t (1 : Fin 2) = t.val % 8
    ∧ k0_off1 (grid0.coords t) (0 : Fin 2) = 1024 * (t.val % 8) ∧ k0_off1 (grid0.coords t) (1 : Fin 2) = 0 :=
  (by decide +kernel : ∀ t : Fin grid0.N,
    win0_0.index t (0 : Fin 2) = t.val / 8 ∧ win0_0.index t (1 : Fin 2) = 0
    ∧ win0_1.index t (0 : Fin 2) = 0 ∧ win0_1.index t (1 : Fin 2) = 0
    ∧ win0_2.index t (0 : Fin 2) = t.val / 8 ∧ win0_2.index t (1 : Fin 2) = t.val % 8
    ∧ win0_3.index t (0 : Fin 2) = t.val / 8 ∧ win0_3.index t (1 : Fin 2) = t.val % 8
    ∧ k0_off1 (grid0.coords t) (0 : Fin 2) = 1024 * (t.val % 8) ∧ k0_off1 (grid0.coords t) (1 : Fin 2) = 0)

/-- The point's block of U. -/
theorem iblk0_apply (c : Dev nD) (t : Fin cfg0.N) (r : Fin 1024) (k : Fin 256) (a : Fin 8192)
    (ha : a.val = r.val + 1024 * (t.val / 8)) :
    iblk m c 0 t (ix2 r k) = V m c main_arg2 (ix2 a k) := by
  unfold iblk
  show V m c main_arg2 (((cfg0.win 0).blk t).view.emb (ix2 r k)) = _
  refine congrArg (V m c main_arg2) (funext fun ax => Fin.ext ?_)
  obtain ⟨e0, e1, -⟩ := idx_facts_in t
  match ax with
  | ⟨0, _⟩ => show win0_0.index t (0 : Fin 2) * 1024 + 1 * r.val = a.val; omega
  | ⟨1, _⟩ => show win0_0.index t (1 : Fin 2) * 256 + 1 * k.val = k.val; omega

/-- The rows of V the point uses. -/
theorem vrows_apply (c : Dev nD) (t : Fin cfg0.N) (r : Fin 1024) (k : Fin 256) (a : Fin 8192)
    (ha : a.val = r.val + 1024 * (t.val % 8)) :
    vrows (grid0.coords t) (iblk m c 1 t) (ix2 r k) = V m c main_arg3 (ix2 a k) := by
  unfold vrows iblk
  show V m c main_arg3 (((cfg0.win 1).blk t).view.emb
    ((Rect.unit (s := S8192x256) (k0_off1 (grid0.coords t)) S1024x256.size (k0_off1_inb (grid0.coords t))).idx (ix2 r k))) = _
  refine congrArg (V m c main_arg3) (funext fun ax => Fin.ext ?_)
  obtain ⟨-, -, e2, e3, -, -, -, -, e8, e9⟩ := idx_facts_in t
  match ax with
  | ⟨0, _⟩ =>
    show win0_1.index t (0 : Fin 2) * 8192 + 1 * (k0_off1 (grid0.coords t) (0 : Fin 2) + 1 * r.val) = a.val; omega
  | ⟨1, _⟩ =>
    show win0_1.index t (1 : Fin 2) * 256 + 1 * (k0_off1 (grid0.coords t) (1 : Fin 2) + 1 * k.val) = k.val; omega

/-- The point's block of R. -/
theorem iblk2_apply (c : Dev nD) (t : Fin cfg0.N) (r q : Fin 1024) (a b : Fin 8192)
    (ha : a.val = r.val + 1024 * (t.val / 8)) (hb : b.val = q.val + 1024 * (t.val % 8)) :
    iblk m c 2 t (ix2 r q) = V m c main_arg0 (ix2 a b) := by
  unfold iblk
  show V m c main_arg0 (((cfg0.win 2).blk t).view.emb (ix2 r q)) = _
  refine congrArg (V m c main_arg0) (funext fun ax => Fin.ext ?_)
  obtain ⟨-, -, -, -, e4, e5, -⟩ := idx_facts_in t
  match ax with
  | ⟨0, _⟩ => show win0_2.index t (0 : Fin 2) * 1024 + 1 * r.val = a.val; omega
  | ⟨1, _⟩ => show win0_2.index t (1 : Fin 2) * 1024 + 1 * q.val = b.val; omega

/-- The point's block of I. -/
theorem iblk3_apply (c : Dev nD) (t : Fin cfg0.N) (r q : Fin 1024) (a b : Fin 8192)
    (ha : a.val = r.val + 1024 * (t.val / 8)) (hb : b.val = q.val + 1024 * (t.val % 8)) :
    iblk m c 3 t (ix2 r q) = V m c main_arg1 (ix2 a b) := by
  unfold iblk
  show V m c main_arg1 (((cfg0.win 3).blk t).view.emb (ix2 r q)) = _
  refine congrArg (V m c main_arg1) (funext fun ax => Fin.ext ?_)
  obtain ⟨-, -, -, -, -, -, e6, e7, -⟩ := idx_facts_in t
  match ax with
  | ⟨0, _⟩ => show win0_3.index t (0 : Fin 2) * 1024 + 1 * r.val = a.val; omega
  | ⟨1, _⟩ => show win0_3.index t (1 : Fin 2) * 1024 + 1 * q.val = b.val; omega

/-! ### The point's scalars from the whole arrays -/

theorem suN_eq (c : Dev nD) (i : Fin 8) : suN m c (8 * i.val) = sqBlk (V m c main_arg2) i := by
  have h : 8 * i.val < cfg0.N := by rw [show cfg0.N = 64 from N_0]; omega
  rw [suN_of_lt m c h]
  unfold sqNorm sqBlk
  refine Finset.sum_congr rfl fun r _ => Finset.sum_congr rfl fun k _ => ?_
  rw [iblk0_apply m c ⟨8 * i.val, h⟩ r k (blk i r) (by show r.val + 1024 * i.val = r.val + 1024 * (8 * i.val / 8); omega)]

theorem svN_eq (c : Dev nD) (j : Fin 8) : svN m c j.val = sqBlk (V m c main_arg3) j := by
  have h : j.val < cfg0.N := by rw [show cfg0.N = 64 from N_0]; omega
  rw [svN_of_lt m c h]
  unfold sqNorm sqBlk
  refine Finset.sum_congr rfl fun r _ => Finset.sum_congr rfl fun k _ => ?_
  rw [vrows_apply m c ⟨j.val, h⟩ r k (blk j r) (by show r.val + 1024 * j.val = r.val + 1024 * (j.val % 8); omega)]

theorem ptN_eq (c : Dev nD) (i j : Fin 8) :
    ptN m c (8 * i.val + j.val)
      = errTile (V m c main_arg0) (V m c main_arg1) (V m c main_arg2) (V m c main_arg3) i j := by
  have h : 8 * i.val + j.val < cfg0.N := by rw [show cfg0.N = 64 from N_0]; omega
  have hd : (8 * i.val + j.val) / 8 = i.val := by omega
  have hm : (8 * i.val + j.val) % 8 = j.val := by omega
  rw [ptN_of_lt m c h]
  unfold tileErr errTile errAt
  refine Finset.sum_congr rfl fun r _ => Finset.sum_congr rfl fun q _ => ?_
  have hU : ∀ k : Fin 256, iblk m c 0 ⟨8 * i.val + j.val, h⟩ (ix2 r k) = V m c main_arg2 (ix2 (blk i r) k) :=
    fun k => iblk0_apply m c ⟨8 * i.val + j.val, h⟩ r k (blk i r) (by show r.val + 1024 * i.val = r.val + 1024 * ((8 * i.val + j.val) / 8); rw [hd])
  have hV : ∀ k : Fin 256, vrows (grid0.coords ⟨8 * i.val + j.val, h⟩) (iblk m c 1 ⟨8 * i.val + j.val, h⟩) (ix2 q k)
      = V m c main_arg3 (ix2 (blk j q) k) :=
    fun k => vrows_apply m c ⟨8 * i.val + j.val, h⟩ q k (blk j q) (by show q.val + 1024 * j.val = q.val + 1024 * ((8 * i.val + j.val) % 8); rw [hm])
  have hR : iblk m c 2 ⟨8 * i.val + j.val, h⟩ (ix2 r q) = V m c main_arg0 (ix2 (blk i r) (blk j q)) :=
    iblk2_apply m c ⟨8 * i.val + j.val, h⟩ r q (blk i r) (blk j q)
      (by show r.val + 1024 * i.val = r.val + 1024 * ((8 * i.val + j.val) / 8); rw [hd])
      (by show q.val + 1024 * j.val = q.val + 1024 * ((8 * i.val + j.val) % 8); rw [hm])
  have hI : iblk m c 3 ⟨8 * i.val + j.val, h⟩ (ix2 r q) = V m c main_arg1 (ix2 (blk i r) (blk j q)) :=
    iblk3_apply m c ⟨8 * i.val + j.val, h⟩ r q (blk i r) (blk j q)
      (by show r.val + 1024 * i.val = r.val + 1024 * ((8 * i.val + j.val) / 8); rw [hd])
      (by show q.val + 1024 * j.val = q.val + 1024 * ((8 * i.val + j.val) % 8); rw [hm])
  rw [hR, hI, Finset.sum_congr rfl fun k _ => by rw [hU k, hV k]]

theorem suN_nonneg (c : Dev nD) (n : ℕ) : 0 ≤ suN m c n := by
  unfold suN
  split
  · exact Finset.sum_nonneg fun _ _ => Finset.sum_nonneg fun _ _ => mul_self_nonneg _
  · exact le_refl 0

theorem svN_nonneg (c : Dev nD) (n : ℕ) : 0 ≤ svN m c n := by
  unfold svN
  split
  · exact Finset.sum_nonneg fun _ _ => Finset.sum_nonneg fun _ _ => mul_self_nonneg _
  · exact le_refl 0

end Cert.KernelIdeal.Tile

end
-- ==== Proof.KernelValue.lean ====
/-
  The kernel program's result, at the ideal instance.

  Output row `i` of the [8, 8, 128] result array is written back once, after the row's last column tile (grid point
  `8 i + 7`), and every entry of it then holds the running value of that point.  The lines after the kernel take
  entry (i, 0, 0) of each row and add the eight of them to zero; so the program's result is zero plus the sum over
  the rows of their last running values.
-/
import proofs.«143108_j80161269612812_2_alg».proof.Proof.Chain
import Idealize.ShloMosaic.Lib.Pipeline.Value
import Idealize.ShloMosaic.Lib.StableHlo.Run
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.TcCoe Idealize.SL.Sem
open Idealize.ShloMosaic.ValueIdx Cert.SumLaws
open Idealize.ShloMosaic.Pipeline (Dat)

variable (m : (ℓ : Loc nD τ sig) → Buf (Elt Ideal) ℓ) (ρ : Dev nD → PrngReg)

/-- The output's block at point `t` is row `t / 8` of the result array, whole. -/
theorem idx_facts4 : ∀ t : Fin cfg0.N, win0_4.index t (0 : Fin 3) = t.val / 8 ∧ win0_4.index t (1 : Fin 3) = 0
    ∧ win0_4.index t (2 : Fin 3) = 0 :=
  (by decide +kernel : ∀ t : Fin grid0.N, win0_4.index t (0 : Fin 3) = t.val / 8 ∧ win0_4.index t (1 : Fin 3) = 0
    ∧ win0_4.index t (2 : Fin 3) = 0)

/-- The result array after the kernel: row `i` holds the running value of the row's last point everywhere. -/
def rows (c : Dev nD) : S8x8x128.Idx → EReal := fun i => acc lam (suN m c) (svN m c) (ptN m c) (8 * (i 0).val + 7)

/-- What a write-back writes is the block of `rows`. -/
theorem flushed_eq (c : Dev nD) (t : Fin cfg0.N) (hf : (cfg0.win 4).flush t = true) :
    (dats m 0 c).flushed 4 t = ((cfg0.win 4).blk t).view.read (Elt Ideal) (rows m c) := by
  show (cfg0.win 4).cut (grid0.coords t) ((dats m 0 c).after 4 t) = _
  rw [after0_4]
  funext j
  have h7 : t.val % 8 = 7 := (flush0_4 t).mp hf
  show outsAt0 m c t.val t.isLt j = rows m c (((cfg0.win 4).blk t).view.emb j)
  rw [outsAt_eq m c t.val t.isLt j]
  unfold rows
  have e : ((((cfg0.win 4).blk t).view.emb j) 0).val = win0_4.index t (0 : Fin 3) * 1 + 1 * (j 0).val := rfl
  have hj : (j 0).val < 1 := (j 0).isLt
  rw [e, (idx_facts4 t).1]
  congr 1
  omega

/-- An index of the result array is in point `t`'s block iff each coordinate is in the block's range. -/
theorem mem_blk4 (t : Fin cfg0.N) (i : S8x8x128.Idx) :
    i ∈ ((cfg0.win 4).blk t).view.set ↔ ∀ a : Fin 3, win0_4.index t a * S1x8x128.size a ≤ (i a).val
      ∧ (i a).val < win0_4.index t a * S1x8x128.size a + S1x8x128.size a := by
  show i ∈ ((View.whole main_v0).slice (win0_4.rect t)).set ↔ _
  rw [View.set_slice_whole, Rect.mem_set_unit]
  exact Iff.rfl

/-- Every row is written back, by the last point of the row. -/
theorem cover (i : S8x8x128.Idx) :
    ∃ t : Fin cfg0.N, (cfg0.win 4).flush t = true ∧ i ∈ ((cfg0.win 4).blk t).view.set := by
  have h0 : (i 0).val < 8 := (i 0).isLt
  have h1 : (i 1).val < 8 := (i 1).isLt
  have h2 : (i 2).val < 128 := (i 2).isLt
  obtain ⟨t, ht⟩ : ∃ t : Fin cfg0.N, t.val = 8 * (i 0).val + 7 :=
    ⟨⟨8 * (i 0).val + 7, by rw [show cfg0.N = 64 from N_0]; omega⟩, rfl⟩
  refine ⟨t, (flush0_4 t).mpr (by omega), ?_⟩
  rw [mem_blk4]
  obtain ⟨e0, e1, e2⟩ := idx_facts4 t
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 8 ≤ (i 1).val ∧ (i 1).val < win0_4.index t (1 : Fin 3) * 8 + 8
    omega
  | ⟨2, _⟩ =>
    show win0_4.index t (2 : Fin 3) * 128 ≤ (i 2).val ∧ (i 2).val < win0_4.index t (2 : Fin 3) * 128 + 128
    omega

/-- So the result array ends at `rows`. -/
theorem final_rows (c : Dev nD) : (dats m 0 c).arrAt 4 cfg0.N = rows m c :=
  (dats m 0 c).arrAt_eq_of_cover 4 (rows m c) (flushed_eq m c) (cover)

/-- A sum over the indices of a length-`n` vector is the sum over its coordinate. -/
theorem sum_idx1 {M : Type*} [AddCommMonoid M] {n : ℕ} (f : (⟨1, ![n]⟩ : Shape).Idx → M) :
    ∑ j, f j = ∑ k : Fin n, f (ix1 k) := by
  refine Fintype.sum_equiv ⟨fun j => j 0, ix1, fun j => (eq_ix1 j).symm, fun _ => rfl⟩ _ _ (fun j => ?_)
  exact congrArg f (eq_ix1 j)

/-- The program's result: zero plus the rows' last running values. -/
def result (c : Dev nD) : Buf (Elt Ideal) ((c.tc : Thread nD τ).loc main_v3) :=
  fun _ => 0 + ∑ i ∈ Finset.range 8, acc lam (suN m c) (svN m c) (ptN m c) (8 * i + 7)

/-- Entry (i, 0, 0) of each row, as the lines after the kernel extract it. -/
theorem corner_apply (x : S8x8x128.Idx → EReal) (k : Fin 8) :
    shapeCast S8 (extractStridedSlice S8x1x1 ![0, 0, 0] x slices_S8x8x128_S8x1x1_0_0_0) shapeCasts_S8x1x1_S8 (ix1 k)
      = x (ix3 k (0 : Fin 8) (0 : Fin 128)) :=
  (shapeCast_apply _ shapeCasts_S8x1x1_S8 (ix1 k) (ix3 k (0 : Fin 1) (0 : Fin 1)) (by
    rw [Shape.rowMajor_val_three, Shape.rowMajor_val_one]
    show (k.val * 1 + 0) * 1 + 0 = k.val
    omega)).trans
  (extractStridedSlice_apply ![0, 0, 0] x slices_S8x8x128_S8x1x1_0_0_0 (ix3 k (0 : Fin 1) (0 : Fin 1))
    (ix3 k (0 : Fin 8) (0 : Fin 128)) (fun a => match a with
      | ⟨0, _⟩ => (Nat.zero_add k.val).symm
      | ⟨1, _⟩ => rfl
      | ⟨2, _⟩ => rfl))

/-- The lines after the kernel, applied to the result array. -/
theorem tail_eq (c : Dev nD) :
    Pipeline.afterTail₀ cfgs (dats m) 0 (V0 m) [hostOps1] c main_v3 = result m c := by
  have hw : Pipeline.withArrays (cfgs 0).spec c (V0 m c) (fun w => (dats m 0 c).arrAt w (cfgs 0).N)
      (Proc.devRef .tc main_v0) = rows m c :=
    (Pipeline.withArrays_arr spec0 launch0.win.arr_inj c _ _ 4).trans (final_rows m c)
  unfold Pipeline.afterTail₀
  show StableHlo.after hostOps1 _ (Proc.devRef .tc main_v3) = _
  after_results
  rw [hw]
  funext j
  simp only [Host.reduceAdd, Ideal.hostReduceAdd_def]
  refine (Ideal.hostReduceAdd_total reducesTo_S8_S_d0 (fun b => b.elim0) _ _ j).trans ?_
  show Ideal.ofBits .f32 0x00000000#32 + ∑ i : S8.Idx, _ = 0 + ∑ i ∈ Finset.range 8, _
  rw [Ideal.ofBits_zero_f32, sum_idx1, Finset.sum_range]
  refine congrArg (0 + ·) (Finset.sum_congr rfl fun k _ => ?_)
  exact corner_apply (rows m c) k

/-- The kernel program's run, read: the result, and the arguments unchanged. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v3 (by decide)).trans (tail_eq m c),
      ((h c).1 2).trans (((dats m 0 c).arrAt_in 2 rfl _).trans ((A_eq m c 2).trans (V_main_arg0 m c))),
      ((h c).1 3).trans (((dats m 0 c).arrAt_in 3 rfl _).trans ((A_eq m c 3).trans (V_main_arg1 m c))),
      ((h c).1 0).trans (((dats m 0 c).arrAt_in 0 rfl _).trans ((A_eq m c 0).trans (V_main_arg2 m c))),
      ((h c).1 1).trans (((dats m 0 c).arrAt_in 1 rfl _).trans ((A_eq m c 1).trans (V_main_arg3 m c)))⟩)
    (run_main m ρ)

end Cert.KernelIdeal.Tile

end
-- ==== Proof.Bridge.lean ====
/-
  The kernel program's result is the loss of the argument arrays.  The rows' last running values add up to the
  tiles' errors plus the weight times the row blocks' squared norms of U and of V (the weight leaves the sums
  because squared norms are nonnegative); the tiles and the row blocks are the blocks of the whole arrays; and the
  loss regroups into exactly these sums.
-/
import proofs.«143108_j80161269612812_2_alg».proof.Proof.Blocks
import proofs.«143108_j80161269612812_2_alg».proof.Proof.KernelValue

noncomputable section

namespace Cert.KernelIdeal.Tile

open Cert.KernelIdeal Cert.KernelIdeal.Gen Idealize.ShloMosaic Idealize.ShloMosaic.TcCoe Idealize.SL.Sem
open Idealize.ShloMosaic.ValueIdx Cert.SumLaws Cert.Spec

variable (m : (ℓ : Loc nD τ sig) → Buf (Elt Ideal) ℓ)

theorem kernel_eq (c : Dev nD) (j : S_.Idx) :
    result m c j = loss lam (m ((c.tc : Thread nD τ).loc main_arg0)) (m ((c.tc : Thread nD τ).loc main_arg1))
      (m ((c.tc : Thread nD τ).loc main_arg2)) (m ((c.tc : Thread nD τ).loc main_arg3)) := by
  show _ = loss lam (V m c main_arg0) (V m c main_arg1) (V m c main_arg2) (V m c main_arg3)
  have hE : ∑ i ∈ Finset.range 8, ∑ k ∈ Finset.range 8, ptN m c (8 * i + k)
      = ∑ i : Fin 8, ∑ j : Fin 8, errTile (V m c main_arg0) (V m c main_arg1) (V m c main_arg2) (V m c main_arg3) i j :=
    (Finset.sum_range _).trans (Finset.sum_congr rfl fun i _ =>
      (Finset.sum_range _).trans (Finset.sum_congr rfl fun j _ => ptN_eq m c i j))
  have hU : ∑ i ∈ Finset.range 8, suN m c (8 * i) = ∑ i : Fin 8, sqBlk (V m c main_arg2) i :=
    (Finset.sum_range _).trans (Finset.sum_congr rfl fun i _ => suN_eq m c i)
  have hV : ∑ k ∈ Finset.range 8, svN m c k = ∑ j : Fin 8, sqBlk (V m c main_arg3) j :=
    (Finset.sum_range _).trans (Finset.sum_congr rfl fun j _ => svN_eq m c j)
  unfold result
  rw [total lam (suN m c) (svN m c) (ptN m c) (suN_nonneg m c) (svN_nonneg m c), hE, hU, hV, loss_eq]

end Cert.KernelIdeal.Tile

end
-- ==== Proof.RefValue.lean ====
/-
  The reference program's result, at the ideal instance, is the loss of the four argument arrays: its matrix
  product of U with V transposed is the sum over the latent index of `U[a,k] · V[b,k]`, its three reductions are
  zero plus the double sums, and every sum over a matrix's indices is the double sum over rows and columns.
-/
import proofs.«143108_j80161269612812_2_alg».proof.Proof.Gen.ReferenceIdeal.Read
import proofs.«143108_j80161269612812_2_alg».proof.Proof.Spec

noncomputable section

namespace Cert.ReferenceIdeal.RefValue

open Cert.ReferenceIdeal Cert.ReferenceIdeal.Gen Cert.ReferenceIdeal.Read Idealize.ShloMosaic
open Idealize.ShloMosaic.ValueIdx Cert.Spec

/-- The regularization weight. -/
abbrev lam : EReal := Ideal.ofBits .f32 0x3C23D70A#32

/-- The left operand's index of the product at (a, b), latent index k, is (a, k); -/
theorem lidx_eq (a b : Fin 8192) (k : Fin 256) : lidx_main_v1 (ix2 a b) k = ix2 a k :=
  funext fun ax => Fin.ext (by match ax with | ⟨0, _⟩ => rfl | ⟨1, _⟩ => rfl)

/-- the transposed right operand's is (b, k) of V. -/
theorem ridx_eq (a b : Fin 8192) (k : Fin 256) : idx_main_v0 (ridx_main_v1 (ix2 a b) k) = ix2 b k :=
  funext fun ax => Fin.ext (by match ax with | ⟨0, _⟩ => rfl | ⟨1, _⟩ => rfl)

/-- The reference's result is the loss. -/
theorem ref_eq (x0 x1 : (⟨S8192x8192, .f32⟩ : BufTy).Contents (Elt Ideal))
    (x2 x3 : (⟨S8192x256, .f32⟩ : BufTy).Contents (Elt Ideal)) (i : S_.Idx) :
    val_main_v13 (F := Ideal) x0 x1 x2 x3 i = loss lam x0 x1 x2 x3 := by
  rw [val_main_v13_apply, val_main_v9_apply, val_main_v12_apply, val_main_v8_apply, val_main_v5_apply,
    val_main_v7_apply, val_main_v11_apply, sum_idx2, sum_idx2, sum_idx2]
  unfold loss sqAll errAt
  simp only [val_main_v4_apply, val_main_v3_apply, val_main_v2_apply, val_main_v1_apply, val_main_v0_apply,
    val_main_v6_apply, val_main_v10_apply, val_main_cst_apply, val_main_cst_0_apply, val_main_cst_1_apply,
    val_main_cst_2_apply, val_main_cst_3_apply, lidx_eq, ridx_eq, Ideal.addf_def, Ideal.mulf_def, Ideal.subf_def,
    Ideal.ofBits_def, Ideal.ofBits_zero_f32]

end Cert.ReferenceIdeal.RefValue

end
-- ==== Proof.lean ====
/-
  The probabilistic-matrix-factorization loss

      sum(I · (R − U Vᵀ)²) + λ · ‖U‖² + λ · ‖V‖²

  computed by a tiled kernel against the plain reference, equal on the extended reals.

  The kernel walks an 8 × 8 grid of [1024, 1024] tiles of R and I.  Output row `i` accumulates, over the row's eight
  column tiles, the tile's masked squared error; at the row's first tile it starts from λ times the squared norm of
  the row's block of U; and the first row also adds, at each tile, λ times the squared norm of that tile's block of V.
  The program then adds the eight rows to zero.  The reference takes the three sums over the whole arrays and
  multiplies the two squared norms by λ.  The two agree because addition on the extended reals is commutative and
  associative, so the error sum may be taken tile by tile, and because a constant factor distributes over a sum of
  NONNEGATIVE extended reals, so λ may be taken out of the sum of the blocks' squared norms — no finiteness of the
  inputs is used.  The prediction `U Vᵀ` is the same sum over the latent index on both sides (the kernel's change of
  float format before the product is the identity here).

  The frames of the two kernel programs are the generated ones; the reference's frame is its generated run; the
  ideal pass rewrote nothing.
-/
import proofs.«143108_j80161269612812_2_alg».proof.Defs
import proofs.«143108_j80161269612812_2_alg».proof.Proof.Gen.Kernel
import proofs.«143108_j80161269612812_2_alg».proof.Proof.Gen.Kernel.Frame
import proofs.«143108_j80161269612812_2_alg».proof.Proof.Gen.KernelIdeal
import proofs.«143108_j80161269612812_2_alg».proof.Proof.Gen.KernelIdeal.Frame
import proofs.«143108_j80161269612812_2_alg».proof.Proof.Gen.ReferenceIdeal
import proofs.«143108_j80161269612812_2_alg».proof.Proof.Gen.ReferenceIdeal.Run
import proofs.«143108_j80161269612812_2_alg».proof.Proof.Gen.ReferenceIdeal.Read
import proofs.«143108_j80161269612812_2_alg».proof.Proof.Gen.Pre_finite_inputs
import proofs.«143108_j80161269612812_2_alg».proof.Proof.Bridge
import proofs.«143108_j80161269612812_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the loss of the argument arrays. -/
theorem algebraic : Cert.algebraic_KernelIdeal_ReferenceIdeal := by
  intro m ρ m' ρ' _ hagree
  refine ⟨fun c => Cert.KernelIdeal.Tile.result m c, Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, (hagree c).1, (hagree c).2.1, (hagree c).2.2.1, (hagree c).2.2.2]
  funext i
  rw [Cert.ReferenceIdeal.RefValue.ref_eq]
  exact (Cert.KernelIdeal.Tile.kernel_eq m c i).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
